-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v6)) (v1 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_v7) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v22) = v0 c
          ∧ r.2.mem ((c.tc : Thread Cert.ReferenceIdeal.nD Cert.ReferenceIdeal.τ).loc Cert.ReferenceIdeal.main_v21) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x4096 : Shape := ⟨2, ![32, 4096]⟩
abbrev S256 : Shape := ⟨1, ![256]⟩
abbrev S256x256 : Shape := ⟨2, ![256, 256]⟩
abbrev S_ : Shape := ⟨0, ![]⟩

class Facts : Prop where
  bcast_S_S32x4096 : S_.BroadcastsInDim S32x4096 (![] : Fin 0 → Fin S32x4096.rank)
  reducesTo_S32x4096_S_d0_1 : S32x4096.ReducesTo [0, 1] S_
  h_S_ : 0 < S_.numel
  bcast_S_S256 : S_.BroadcastsInDim S256 (![] : Fin 0 → Fin S256.rank)
  reducesTo_S256_S_d0 : S256.ReducesTo [0] S_
  bcast_S_S256x256 : S_.BroadcastsInDim S256x256 (![] : Fin 0 → Fin S256x256.rank)
  reducesTo_S256x256_S_d0_1 : S256x256.ReducesTo [0, 1] S_

variable [Facts]

def fn_part1 {F : FTy → Type} [FloatOps F] (main_v13 : IVec S_ 1) (main_v16 : IVec S256x256 1) : IVec S_ 1 :=
  let main_c_5 : IVec S_ 1 := constantI S_ 1 1#1
  let main_v17 : IVec S_ 1 := (fun x v => Host.reduce IntOp.andi x v reducesTo_S256x256_S_d0_1 h_S_) main_v16 main_c_5
  let main_v18 : IVec S_ 1 := andi main_v13 main_v17
  main_v18

def fn {F : FTy → Type} [FloatOps F] (main_arg0 : FVec F S32x4096 .f32) (main_arg1 : FVec F S256 .f32) (main_arg2 : FVec F S256 .f32) (main_arg3 : FVec F S256x256 .f32) : IVec S_ 1 :=
  let main_v0 : FVec F S32x4096 .f32 := Host.absf main_arg0
  let main_cst : FVec F S_ .f32 := constant S_ .f32 0x7F800000#32
  let main_v1 : FVec F S32x4096 .f32 := broadcastInDim S32x4096 ![] bcast_S_S32x4096 main_cst
  let main_v2 : IVec S32x4096 1 := cmpf .olt main_v0 main_v1
  let main_c : IVec S_ 1 := constantI S_ 1 1#1
  let main_v3 : IVec S_ 1 := (fun x v => Host.reduce IntOp.andi x v reducesTo_S32x4096_S_d0_1 h_S_) main_v2 main_c
  let main_v4 : FVec F S256 .f32 := Host.absf main_arg1
  let main_cst_0 : FVec F S_ .f32 := constant S_ .f32 0x7F800000#32
  let main_v5 : FVec F S256 .f32 := broadcastInDim S256 ![] bcast_S_S256 main_cst_0
  let main_v6 : IVec S256 1 := cmpf .olt main_v4 main_v5
  let main_c_1 : IVec S_ 1 := constantI S_ 1 1#1
  let main_v7 : IVec S_ 1 := (fun x v => Host.reduce IntOp.andi x v reducesTo_S256_S_d0 h_S_) main_v6 main_c_1
  let main_v8 : IVec S_ 1 := andi main_v3 main_v7
  let main_v9 : FVec F S256 .f32 := Host.absf main_arg2
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S256x256 .f32 := Host.absf main_arg3
  let main_cst_4 : FVec F S_ .f32 := constant S_ .f32 0x7F800000#32
  let main_v15 : FVec F S256x256 .f32 := broadcastInDim S256x256 ![] bcast_S_S256x256 main_cst_4
  let main_v16 : IVec S256x256 1 := cmpf .olt main_v14 main_v15
  fn_part1 (F := F) main_v13 main_v16
-- ==== Kernel.lean ====
abbrev S32x4096 : Shape := ⟨2, ![32, 4096]⟩
abbrev S256 : Shape := ⟨1, ![256]⟩
abbrev S256x256 : Shape := ⟨2, ![256, 256]⟩
abbrev S131072x1 : Shape := ⟨2, ![131072, 1]⟩
abbrev S1x256 : Shape := ⟨2, ![1, 256]⟩
abbrev S131072x256 : Shape := ⟨2, ![131072, 256]⟩
abbrev S4096x1 : Shape := ⟨2, ![4096, 1]⟩
abbrev S4096x256 : Shape := ⟨2, ![4096, 256]⟩
abbrev S4096 : Shape := ⟨1, ![4096]⟩
abbrev S32x4096x256 : Shape := ⟨3, ![32, 4096, 256]⟩

abbrev nBuf : Space → Nat
  | .hbm => 13
  | .vmem => 9
  | .smem => 0
  | _ => 0

abbrev bufTy : (tb : Table) → Fin (tcTables nBuf tb) → BufTy
  | .hbm, ⟨0, _⟩ => ⟨S32x4096, .f32⟩
  | .hbm, ⟨1, _⟩ => ⟨S256, .f32⟩
  | .hbm, ⟨2, _⟩ => ⟨S256, .f32⟩
  | .hbm, ⟨3, _⟩ => ⟨S256x256, .f32⟩
  | .hbm, ⟨4, _⟩ => ⟨S131072x1, .f32⟩
  | .hbm, ⟨5, _⟩ => ⟨S1x256, .f32⟩
  | .hbm, ⟨6, _⟩ => ⟨S256, .f32⟩
  | .hbm, ⟨7, _⟩ => ⟨S256, .f32⟩
  | .hbm, ⟨8, _⟩ => ⟨S1x256, .f32⟩
  | .hbm, ⟨9, _⟩ => ⟨S131072x256, .f32⟩
  | .hbm, ⟨10, _⟩ => ⟨S131072x256, .f32⟩
  | .hbm, ⟨11, _⟩ => ⟨S32x4096x256, .f32⟩
  | .hbm, ⟨12, _⟩ => ⟨S32x4096x256, .f32⟩
  | .local _ .vmem, ⟨0, _⟩ => ⟨S4096x1, .f32⟩
  | .local _ .vmem, ⟨1, _⟩ => ⟨S4096x1, .f32⟩
  | .local _ .vmem, ⟨2, _⟩ => ⟨S1x256, .f32⟩
  | .local _ .vmem, ⟨3, _⟩ => ⟨S1x256, .f32⟩
  | .local _ .vmem, ⟨4, _⟩ => ⟨S256x256, .f32⟩
  | .local _ .vmem, ⟨5, _⟩ => ⟨S4096x256, .f32⟩
  | .local _ .vmem, ⟨6, _⟩ => ⟨S4096x256, .f32⟩
  | .local _ .vmem, ⟨7, _⟩ => ⟨S4096x256, .f32⟩
  | .local _ .vmem, ⟨8, _⟩ => ⟨S4096x256, .f32⟩
  | _, _ => ⟨S32x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5_0 : Ref sig .tc := ⟨.hbm, 9, rfl⟩
abbrev main_v5_1 : Ref sig .tc := ⟨.hbm, 10, rfl⟩
abbrev main_v6 : Ref sig .tc := ⟨.hbm, 11, rfl⟩
abbrev main_v7 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4096x1 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S4096x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S4096x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  shapeCasts_S32x4096_S131072x1 : S32x4096.ShapeCasts S131072x1
  shapeCasts_S256_S1x256 : S256.ShapeCasts S1x256
  inb_S4096x1_S4096x1_0_0 : ∀ a, (![0, 0] : Fin 2 → Nat) a + S4096x1.size a ≤ S4096x1.size a
  h_S4096x1 : 0 < S4096x1.numel
  shapeCasts_S4096x1_S4096x1 : S4096x1.ShapeCasts S4096x1
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S4096x1_S4096x256 : S4096x1.Broadcasts S4096x256
  broadcasts_S1x256_S4096x256 : S1x256.Broadcasts S4096x256
  reduces_S4096x256_S4096 : S4096x256.Reduces [1] S4096
  shapeCasts_S4096_S4096x1 : S4096.ShapeCasts S4096x1
  inb_S4096x256_S4096x256_0_0 : ∀ a, (![0, 0] : Fin 2 → Nat) a + S4096x256.size a ≤ S4096x256.size a
  h_S4096x256 : 0 < S4096x256.numel
  inb_S256x256_S256x256_0_0 : ∀ a, (![0, 0] : Fin 2 → Nat) a + S256x256.size a ≤ S256x256.size a
  h_S256x256 : 0 < S256x256.numel
  shapeCasts_S131072x256_S32x4096x256 : S131072x256.ShapeCasts S32x4096x256
  dot_S4096x256_S256x256_S4096x256_1_0_0_1_n_n_wf : DotDims.WF S4096x256 S256x256 S4096x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x1.size a ≤ S131072x1.size a
  hwx0_0 : ∀ i : grid0.Coords, EltTy.bits .f32 = 32 ∨ (Rect.block (s := S131072x1) S4096x1.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x256.size a ≤ S1x256.size a
  hwx0_1 : ∀ i : grid0.Coords, EltTy.bits .f32 = 32 ∨ (Rect.block (s := S1x256) S1x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x256.size a ≤ S1x256.size a
  hwx0_2 : ∀ i : grid0.Coords, EltTy.bits .f32 = 32 ∨ (Rect.block (s := S1x256) S1x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x256.size a ≤ S256x256.size a
  hwx0_3 : ∀ i : grid0.Coords, EltTy.bits .f32 = 32 ∨ (Rect.block (s := S256x256) S256x256.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S4096x256.size a ≤ S131072x256.size a
  hwx0_4 : ∀ i : grid0.Coords, EltTy.bits .f32 = 32 ∨ (Rect.block (s := S131072x256) S4096x256.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S4096x256.size a ≤ S131072x256.size a
  hwx0_5 : ∀ i : grid0.Coords, EltTy.bits .f32 = 32 ∨ (Rect.block (s := S131072x256) S4096x256.size (cc0_transform_5 i) (hinb0_5 i)).WholeWords (EltTy.packing .f32)

variable [Facts₀]

def dot_S4096x256_S256x256_S4096x256_1_0_0_1_n_n : DotDims S4096x256 S256x256 S4096x256 where
  lhsContracting := [1]
  rhsContracting := [0]
  lhsNonContracting := [0]
  rhsNonContracting := [1]
  lhsBatch := []
  rhsBatch := []
  wf := dot_S4096x256_S256x256_S4096x256_1_0_0_1_n_n_wf

abbrev win0_0 : Pipeline.Window sig grid0 :=
  Pipeline.Window.ofSpec (Memref.whole main_v0) S4096x1.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v4) S1x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S256x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v5_0) S4096x256.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v5_1) S4096x256.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S32x4096 : Shape := ⟨2, ![32, 4096]⟩
abbrev S256 : Shape := ⟨1, ![256]⟩
abbrev S256x256 : Shape := ⟨2, ![256, 256]⟩
abbrev S32x4096x1 : Shape := ⟨3, ![32, 4096, 1]⟩
abbrev S1x1x256 : Shape := ⟨3, ![1, 1, 256]⟩
abbrev S32x4096x256 : Shape := ⟨3, ![32, 4096, 256]⟩
abbrev S_ : Shape := ⟨0, ![]⟩

abbrev nBuf : Space → Nat
  | .hbm => 30
  | .vmem => 0
  | .smem => 0
  | _ => 0

abbrev bufTy : (tb : Table) → Fin (tcTables nBuf tb) → BufTy
  | .hbm, ⟨0, _⟩ => ⟨S32x4096, .f32⟩
  | .hbm, ⟨1, _⟩ => ⟨S256, .f32⟩
  | .hbm, ⟨2, _⟩ => ⟨S256, .f32⟩
  | .hbm, ⟨3, _⟩ => ⟨S256x256, .f32⟩
  | .hbm, ⟨4, _⟩ => ⟨S32x4096x1, .f32⟩
  | .hbm, ⟨5, _⟩ => ⟨S1x1x256, .f32⟩
  | .hbm, ⟨6, _⟩ => ⟨S32x4096x256, .f32⟩
  | .hbm, ⟨7, _⟩ => ⟨S32x4096x256, .f32⟩
  | .hbm, ⟨8, _⟩ => ⟨S32x4096x256, .f32⟩
  | .hbm, ⟨9, _⟩ => ⟨S32x4096x256, .f32⟩
  | .hbm, ⟨10, _⟩ => ⟨S256, .f32⟩
  | .hbm, ⟨11, _⟩ => ⟨S256, .f32⟩
  | .hbm, ⟨12, _⟩ => ⟨S1x1x256, .f32⟩
  | .hbm, ⟨13, _⟩ => ⟨S32x4096x256, .f32⟩
  | .hbm, ⟨14, _⟩ => ⟨S32x4096x256, .f32⟩
  | .hbm, ⟨15, _⟩ => ⟨S_, .f32⟩
  | .hbm, ⟨16, _⟩ => ⟨S32x4096, .f32⟩
  | .hbm, ⟨17, _⟩ => ⟨S_, .f32⟩
  | .hbm, ⟨18, _⟩ => ⟨S32x4096, .f32⟩
  | .hbm, ⟨19, _⟩ => ⟨S32x4096, .f32⟩
  | .hbm, ⟨20, _⟩ => ⟨S32x4096x1, .f32⟩
  | .hbm, ⟨21, _⟩ => ⟨S32x4096x256, .f32⟩
  | .hbm, ⟨22, _⟩ => ⟨S32x4096x256, .f32⟩
  | .hbm, ⟨23, _⟩ => ⟨S32x4096x256, .f32⟩
  | .hbm, ⟨24, _⟩ => ⟨S_, .f32⟩
  | .hbm, ⟨25, _⟩ => ⟨S32x4096, .f32⟩
  | .hbm, ⟨26, _⟩ => ⟨S32x4096x1, .f32⟩
  | .hbm, ⟨27, _⟩ => ⟨S32x4096x256, .f32⟩
  | .hbm, ⟨28, _⟩ => ⟨S32x4096x256, .f32⟩
  | .hbm, ⟨29, _⟩ => ⟨S32x4096x256, .f32⟩
  | _, _ => ⟨S32x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_cst : Ref sig .tc := ⟨.hbm, 15, rfl⟩
abbrev main_v11 : Ref sig .tc := ⟨.hbm, 16, rfl⟩
abbrev main_cst_0 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_cst_1 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩

abbrev nD : Nat := 1
abbrev τ : Topo := Topo.v7x

variable {F : FTy → Type} [FloatOps F]

class Facts₀ : Prop where
  bcast_S32x4096_S32x4096x1_0_1 : S32x4096.BroadcastsInDim S32x4096x1 (![0, 1] : Fin 2 → Fin S32x4096x1.rank)
  bcast_S256_S1x1x256_2 : S256.BroadcastsInDim S1x1x256 (![2] : Fin 1 → Fin S1x1x256.rank)
  bcast_S32x4096x1_S32x4096x256_0_1_2 : S32x4096x1.BroadcastsInDim S32x4096x256 (![0, 1, 2] : Fin 3 → Fin S32x4096x256.rank)
  bcast_S1x1x256_S32x4096x256_0_1_2 : S1x1x256.BroadcastsInDim S32x4096x256 (![0, 1, 2] : Fin 3 → Fin S32x4096x256.rank)
  reducesTo_S32x4096x256_S32x4096_d2 : S32x4096x256.ReducesTo [2] S32x4096
  h_S_ : 0 < S_.numel
  bcast_S_S32x4096 : S_.BroadcastsInDim S32x4096 (![] : Fin 0 → Fin S32x4096.rank)
  dot_S32x4096x256_S256x256_S32x4096x256_2_0_01_1_n_n_wf : DotDims.WF S32x4096x256 S256x256 S32x4096x256 [2] [0] [0, 1] [1] [] []

variable [Facts₀]

def dot_S32x4096x256_S256x256_S32x4096x256_2_0_01_1_n_n : DotDims S32x4096x256 S256x256 S32x4096x256 where
  lhsContracting := [2]
  rhsContracting := [0]
  lhsNonContracting := [0, 1]
  rhsNonContracting := [1]
  lhsBatch := []
  rhsBatch := []
  wf := dot_S32x4096x256_S256x256_S32x4096x256_2_0_01_1_n_n_wf

class Facts : Prop extends Facts₀ where

variable [Facts]
-- ==== Proof.LibLayoutRead.lean ====
/-
  Layout operations read at an index written by its coordinates: the shape casts that add a trailing unit axis
  (a row sum kept as a column), the casts between [a, b, c] and [a·b, c] (rows of a slab laid end to end), the
  broadcasts along unit axes, and the source index of a reduction over the last axis. Each is the general
  read-at-an-index lemma of the library with its per-axis side condition discharged once.
-/
import Idealize.ShloMosaic.Lib.Pipeline.Value
import Idealize.ShloMosaic.Lib.ValueIdx
import Idealize.ShloMosaic.Lib.ValueLayout
import Idealize.ShloMosaic.PureOps.Ideal.Laws

noncomputable section

namespace Idealize.ShloMosaic.LayoutRead

open Idealize.ShloMosaic Idealize.ShloMosaic.ValueIdx

variable {α : Type}

/-- An [a, b] array cast to [a, b, 1] reads, at (i, j, u), the operand at (i, j). -/
theorem shapeCast_ab_ab1_apply {a b : ℕ} (x : (⟨2, ![a, b]⟩ : Shape).Idx → α)
    (h : (⟨2, ![a, b]⟩ : Shape).ShapeCasts ⟨3, ![a, b, 1]⟩) (i : Fin a) (j : Fin b) (u : Fin 1) :
    shapeCast ⟨3, ![a, b, 1]⟩ x h (ix3 i j u) = x (ix2 i j) :=
  shapeCast_apply x h _ _ (by
    have hu : u.val = 0 := by omega
    rw [Shape.rowMajor_val_three, Shape.rowMajor_val_two]
    show i.val * b + j.val = (i.val * b + j.val) * 1 + u.val
    rw [hu, Nat.mul_one, Nat.add_zero])

/-- An [a] array cast to [a, 1] reads, at (i, u), the operand at i. -/
theorem shapeCast_a_a1_apply {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An [a, b, c] array cast to [m, c] (m = a·b: the rows laid end to end) reads, at (q, k) with q = i·b + j, the
    operand at (i, j, k). -/
theorem shapeCast_abc_mc_apply {a b c m : ℕ} (x : (⟨3, ![a, b, c]⟩ : Shape).Idx → α)
    (h : (⟨3, ![a, b, c]⟩ : Shape).ShapeCasts ⟨2, ![m, c]⟩) (i : Fin a) (j : Fin b) (k : Fin c) (q : Fin m)
    (hq : q.val = i.val * b + j.val) :
    shapeCast ⟨2, ![m, c]⟩ x h (ix2 q k) = x (ix3 i j k) :=
  shapeCast_apply x h _ _ (by
    rw [Shape.rowMajor_val_three, Shape.rowMajor_val_two]
    show (i.val * b + j.val) * c + k.val = q.val * c + k.val
    rw [hq])

/-- An [m, c] array cast to [a, b, c] reads, at (i, j, k), the operand at (q, k) with q = i·b + j. -/
theorem shapeCast_mc_abc_apply {a b c m : ℕ} (x : (⟨2, ![m, c]⟩ : Shape).Idx → α)
    (h : (⟨2, ![m, c]⟩ : Shape).ShapeCasts ⟨3, ![a, b, c]⟩) (i : Fin a) (j : Fin b) (k : Fin c) (q : Fin m)
    (hq : q.val = i.val * b + j.val) :
    shapeCast ⟨3, ![a, b, c]⟩ x h (ix3 i j k) = x (ix2 q k) :=
  shapeCast_apply x h _ _ (by
    rw [Shape.rowMajor_val_three, Shape.rowMajor_val_two]
    show q.val * c + k.val = (i.val * b + j.val) * c + k.val
    rw [hq])

/-- A broadcast of an [a, b, 1] array along its unit axis reads, at (i, j, k), the operand at (i, j, 0). -/
theorem broadcastTo_ab1_abc_apply {a b c : ℕ} (v : (⟨3, ![a, b, 1]⟩ : Shape).Idx → α)
    (h : (⟨3, ![a, b, 1]⟩ : Shape).Broadcasts ⟨3, ![a, b, c]⟩) (i : Fin a) (j : Fin b) (k : Fin c) :
    broadcastTo ⟨3, ![a, b, c]⟩ v h (ix3 i j k) = v (ix3 i j (0 : Fin 1)) :=
  broadcastTo_apply v h _ _ (by
    intro d
    match d with
    | ⟨0, _⟩ =>
      show i.val = if a = 1 then 0 else i.val
      split
      · omega
      · rfl
    | ⟨1, _⟩ =>
      show j.val = if b = 1 then 0 else j.val
      split
      · omega
      · rfl
    | ⟨2, _⟩ => rfl)

/-- A broadcast of a [1, 1, c] array over the two leading axes reads, at (i, j, k), the operand at (0, 0, k). -/
theorem broadcastTo_11c_abc_apply {a b c : ℕ} (v : (⟨3, ![1, 1, c]⟩ : Shape).Idx → α)
    (h : (⟨3, ![1, 1, c]⟩ : Shape).Broadcasts ⟨3, ![a, b, c]⟩) (i : Fin a) (j : Fin b) (k : Fin c) :
    broadcastTo ⟨3, ![a, b, c]⟩ v h (ix3 i j k) = v (ix3 (0 : Fin 1) (0 : Fin 1) k) :=
  broadcastTo_apply v h _ _ (by
    intro d
    match d with
    | ⟨0, _⟩ => rfl
    | ⟨1, _⟩ => rfl
    | ⟨2, _⟩ =>
      show k.val = if c = 1 then 0 else k.val
      split
      · omega
      · rfl)

/-- A broadcast of an [a, 1] column over b columns reads, at (i, j), the operand at (i, 0). -/
theorem broadcastTo_a1_ab_apply {a b : ℕ} (v : (⟨2, ![a, 1]⟩ : Shape).Idx → α)
    (h : (⟨2, ![a, 1]⟩ : Shape).Broadcasts ⟨2, ![a, b]⟩) (i : Fin a) (j : Fin b) :
    broadcastTo ⟨2, ![a, b]⟩ v h (ix2 i j) = v (ix2 i (0 : Fin 1)) :=
  broadcastTo_apply v h _ _ (by
    intro d
    match d with
    | ⟨0, _⟩ =>
      show i.val = if a = 1 then 0 else i.val
      split
      · omega
      · rfl
    | ⟨1, _⟩ => rfl)

/-- The source index of a reduction of an [a, b] array over its last axis, over result index i with the summed
    coordinate k: (i, k). -/
theorem lift_ab_last {a b : ℕ} (h : (⟨2, ![a, b]⟩ : Shape).Reduces [(1 : Fin 2)] ⟨1, ![a]⟩) (i : Fin a) (k : Fin b) :
    h.lift (ix1 i) k = ix2 i k := by
  funext d
  apply Fin.ext
  show h.liftVal (ix1 i) k.val d = (ix2 i k d).val
  unfold Shape.Reduces.liftVal
  match d with
  | ⟨0, _⟩ => rfl
  | ⟨1, _⟩ => rfl

/-- A sum over the last axis of an [a, b] array at the ideal values, read at i: the sum over k of the entries (i, k). -/
theorem rowSum_apply {a b : ℕ} {φ : FTy} (src : FVec Ideal ⟨2, ![a, b]⟩ φ) (acc : BitVec φ.bits)
    (h : (⟨2, ![a, b]⟩ : Shape).Reduces [(1 : Fin 2)] ⟨1, ![a]⟩) (hφ : FKind.Formats φ)
    (hacc : acc = FKind.add.neutral φ hφ) (i : Fin a) :
    multiReduction .add [(1 : Fin 2)] ⟨1, ![a]⟩ src acc h hφ hacc (ix1 i) = ∑ k : Fin b, src (ix2 i k) :=
  (Ideal.multiReduction_add_single src acc h hφ hacc (ix1 i)).trans
    (Finset.sum_congr rfl fun k _ => congrArg src (lift_ab_last h i k))

end Idealize.ShloMosaic.LayoutRead

end
-- ==== Proof.LibPlainDot.lean ====
/-
  A plain matrix product, M×K by K×N, at the ideal values, read at an index as the sum over the contracted coordinate of
  the products of the operands' entries — for the vector unit's `tpu.matmul` into the zero accumulator and for the host's
  `dot_general` alike. The contraction has one axis, of extent K: its index is that one coordinate (`contrE`), the left
  operand's index at (r, c) and k is (r, k), the right operand's is (k, c).
-/
import Idealize.ShloMosaic.PureOps.Ideal.Laws
import Idealize.ShloMosaic.Lib.ValueIdx

noncomputable section

open scoped BigOperators

namespace Idealize.ShloMosaic.PlainDot

open Idealize.ShloMosaic Idealize.ShloMosaic.ValueIdx

variable {M K N : Nat}

/-- The one-axis contraction index of a plain product is its coordinate. -/
def contrE (M K N : Nat) : (DotDims.plain M K N).contr.Idx ≃ Fin K :=
  contrEquiv1 (DotDims.plain M K N) K rfl rfl

theorem contrE_symm_val (k : Fin K) :
    ((contrE M K N).symm k ⟨0, by have h : (DotDims.plain M K N).contr.rank = 1 := rfl; omega⟩ : ℕ) = k.val :=
  contrEquiv1_symm_val (DotDims.plain M K N) K rfl rfl k

/-- The left operand is read at (row of the result, contracted coordinate). -/
theorem lhsIdx_eq (r : Fin M) (c : Fin N) (k : Fin K) :
    (DotDims.plain M K N).lhsIdx (ix2 r c) ((contrE M K N).symm k) = ix2 r k := by
  funext a
  apply Fin.ext
  match a with
  | ⟨0, _⟩ => rfl
  | ⟨1, _⟩ => exact ((DotDims.plain M K N).lhsIdx_val_of_single (cl := 1) rfl (ix2 r c) _).trans (contrE_symm_val k)

/-- The right operand is read at (contracted coordinate, column of the result). -/
theorem rhsIdx_eq (r : Fin M) (c : Fin N) (k : Fin K) :
    (DotDims.plain M K N).rhsIdx (ix2 r c) ((contrE M K N).symm k) = ix2 k c := by
  funext a
  apply Fin.ext
  match a with
  | ⟨0, _⟩ => exact ((DotDims.plain M K N).rhsIdx_val_of_single (cr := 0) rfl (ix2 r c) _).trans (contrE_symm_val k)
  | ⟨1, _⟩ => rfl

/-- The sum over the contraction index of a plain product, re-indexed by the contracted coordinate. -/
theorem sum_contr (f : (⟨2, ![M, K]⟩ : Shape).Idx → EReal) (g : (⟨2, ![K, N]⟩ : Shape).Idx → EReal) (r : Fin M) (c : Fin N) :
    (∑ k : (DotDims.plain M K N).contr.Idx, f ((DotDims.plain M K N).lhsIdx (ix2 r c) k) * g ((DotDims.plain M K N).rhsIdx (ix2 r c) k))
      = ∑ k : Fin K, f (ix2 r k) * g (ix2 k c) := by
  rw [← Equiv.sum_comp (contrE M K N).symm]
  exact Finset.sum_congr rfl fun k _ => by rw [lhsIdx_eq, rhsIdx_eq]

/-- `tpu.matmul` into the zero accumulator, at (r, c). -/
theorem matmul_zero_apply {φ₁ φ₂ : FTy} (prec : Option ContractPrecision)
    (x : FVec Ideal ⟨2, ![M, K]⟩ φ₁) (w : FVec Ideal ⟨2, ![K, N]⟩ φ₂) (r : Fin M) (c : Fin N) :
    FloatOps.matmul (DotDims.plain M K N) prec x w (constant (⟨2, ![M, N]⟩ : Shape) .f32 0x00000000#32) (ix2 r c)
      = ∑ k : Fin K, x (ix2 r k) * w (ix2 k c) :=
  (Ideal.matmul_constant_zero_apply (DotDims.plain M K N) prec x w (ix2 r c)).trans (sum_contr x w r c)

/-- The host's `dot_general`, at (r, c). -/
theorem dotGeneral_apply {φ₁ φ₂ : FTy} (prec : Option ContractPrecision) (sched : HostSchedule)
    (x : FVec Ideal ⟨2, ![M, K]⟩ φ₁) (w : FVec Ideal ⟨2, ![K, N]⟩ φ₂) (r : Fin M) (c : Fin N) :
    FloatOps.dotGeneral (DotDims.plain M K N) prec sched x w (ix2 r c) = ∑ k : Fin K, x (ix2 r k) * w (ix2 k c) :=
  (Ideal.dotGeneral_apply (DotDims.plain M K N) prec sched x w (ix2 r c)).trans (sum_contr x w r c)

end Idealize.ShloMosaic.PlainDot

end
-- ==== Proof.KernelBody.lean ====
/-
  The kernel body's two stored values, read at an index of the 4096×256 block.

  From a block of 4096 scalars x_r (a column), the anchors' row q_k and the row ns_k of negated scales, the body forms the
  weights  w(r, k) = exp(ns_k · |x_r − q_k|),  sums each row of them, and stores the quotients  p(r, k) = w(r, k) / Σ_j w(r, j);
  it then multiplies that 4096×256 array into the 256×256 codebook:  e(r, c) = Σ_k p(r, k) · C(k, c).
-/
import proofs.«180457_j57578331570649_2_alg».proof.Proof.Gen.KernelIdeal.Skeleton
import proofs.«180457_j57578331570649_2_alg».proof.Proof.LibLayoutRead
import proofs.«180457_j57578331570649_2_alg».proof.Proof.LibPlainDot
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.KernelIdeal.Body

open Cert.KernelIdeal Cert.KernelIdeal.Gen Idealize.ShloMosaic Idealize.ShloMosaic.ValueIdx
open Idealize.ShloMosaic.LayoutRead

/-- The weight of row r against bin k: exp(ns_k · |x_r − q_k|). -/
def weight (x0 : Vec Ideal S4096x1 .f32) (x1 x2 : Vec Ideal S1x256 .f32) (r : Fin 4096) (k : Fin 256) : EReal :=
  Ideal.exp (x2 (ix2 (0 : Fin 1) k)
    * max (x0 (ix2 r (0 : Fin 1)) - x1 (ix2 (0 : Fin 1) k)) (-(x0 (ix2 r (0 : Fin 1)) - x1 (ix2 (0 : Fin 1) k))))

/-- The block of weights as the body's vector term (its identity casts dropped). -/
def weights (x0 : Vec Ideal S4096x1 .f32) (x1 x2 : Vec Ideal S1x256 .f32) : FVec Ideal S4096x256 .f32 :=
  exp (mulf (broadcastTo S4096x256 x2 broadcasts_S1x256_S4096x256)
    (absf (subf (broadcastTo S4096x256 x0 broadcasts_S4096x1_S4096x256) (broadcastTo S4096x256 x1 broadcasts_S1x256_S4096x256))))

/-- The block of weights at (r, k): the column's entry r, the rows' entries k. -/
theorem weights_apply (x0 : Vec Ideal S4096x1 .f32) (x1 x2 : Vec Ideal S1x256 .f32) (r : Fin 4096) (k : Fin 256) :
    weights x0 x1 x2 (ix2 r k) = weight x0 x1 x2 r k := by
  unfold weights weight
  show Ideal.exp (broadcastTo S4096x256 x2 broadcasts_S1x256_S4096x256 (ix2 r k)
      * max (broadcastTo S4096x256 x0 broadcasts_S4096x1_S4096x256 (ix2 r k) - broadcastTo S4096x256 x1 broadcasts_S1x256_S4096x256 (ix2 r k))
          (-(broadcastTo S4096x256 x0 broadcasts_S4096x1_S4096x256 (ix2 r k) - broadcastTo S4096x256 x1 broadcasts_S1x256_S4096x256 (ix2 r k)))) = _
  rw [broadcastTo_1b_ab_apply x2, broadcastTo_1b_ab_apply x1, broadcastTo_a1_ab_apply x0]

/-- The stored quotients are the weights over their row sums kept as a column and spread back over the row. -/
theorem pay1_eq (x0 : Vec Ideal S4096x1 .f32) (x1 x2 : Vec Ideal S1x256 .f32) :
    k0_pay1 (F := Ideal) x0 x1 x2
      = divf (weights x0 x1 x2) (broadcastTo S4096x256 (shapeCast S4096x1
          (multiReduction .add [1] S4096 (weights x0 x1 x2) 0x00000000#32 reduces_S4096x256_S4096 (.inl rfl) rfl)
          shapeCasts_S4096_S4096x1) broadcasts_S4096x1_S4096x256) := by
  unfold k0_pay1 weights
  simp only [shapeCast_self]

/-- THE PROBABILITIES' BLOCK at (r, k): the weight over the sum of the row's 256 weights. -/
theorem pay1_apply (x0 : Vec Ideal S4096x1 .f32) (x1 x2 : Vec Ideal S1x256 .f32) (r : Fin 4096) (k : Fin 256) :
    k0_pay1 (F := Ideal) x0 x1 x2 (ix2 r k) = Ideal.div (weight x0 x1 x2 r k) (∑ j : Fin 256, weight x0 x1 x2 r j) := by
  rw [pay1_eq]
  show Ideal.div (weights x0 x1 x2 (ix2 r k)) (broadcastTo S4096x256 (shapeCast S4096x1
          (multiReduction .add [1] S4096 (weights x0 x1 x2) 0x00000000#32 reduces_S4096x256_S4096 (.inl rfl) rfl)
          shapeCasts_S4096_S4096x1) broadcasts_S4096x1_S4096x256 (ix2 r k)) = _
  rw [broadcastTo_a1_ab_apply, shapeCast_a_a1_apply]
  have hsum : multiReduction .add [1] S4096 (weights x0 x1 x2) 0x00000000#32 reduces_S4096x256_S4096 (.inl rfl) rfl (ix1 r)
      = ∑ j : Fin 256, weights x0 x1 x2 (ix2 r j) :=
    rowSum_apply (weights x0 x1 x2) 0x00000000#32 reduces_S4096x256_S4096 (.inl rfl) rfl r
  exact congrArg₂ Ideal.div (weights_apply x0 x1 x2 r k)
    (hsum.trans (Finset.sum_congr rfl fun j _ => weights_apply x0 x1 x2 r j))

/-- The body's contraction record is the plain 4096×256 by 256×256 product. -/
theorem dot_plain : dot_S4096x256_S256x256_S4096x256_1_0_0_1_n_n = DotDims.plain 4096 256 256 := rfl

/-- THE EMBEDDINGS' BLOCK at (r, c): the row's probabilities against the codebook's column. -/
theorem pay2_apply (x0 : Vec Ideal S4096x1 .f32) (x1 x2 : Vec Ideal S1x256 .f32) (x3 : Vec Ideal S256x256 .f32)
    (r : Fin 4096) (c : Fin 256) :
    k0_pay2 (F := Ideal) x0 x1 x2 x3 (ix2 r c) = ∑ k : Fin 256, k0_pay1 (F := Ideal) x0 x1 x2 (ix2 r k) * x3 (ix2 k c) := by
  unfold k0_pay2
  rw [dot_plain]
  exact PlainDot.matmul_zero_apply (some .fp32) (k0_pay1 (F := Ideal) x0 x1 x2) x3 r c

end Cert.KernelIdeal.Body

end
-- ==== Proof.KernelBlocks.lean ====
/-
  From the blocks the grid's 32 points write back to the two whole output arrays.

  Point t works on rows t·4096 … t·4096 + 4095 of the flattened scalars (a 131072×1 column): its block of scalars is those
  rows, the anchors' row, the negated scales' row and the codebook are the same whole arrays at every point, and what it
  writes back to each 131072×256 output is rows t·4096 … of ONE function of the flat arrays: the probabilities
  P(R, k) = w(R, k) / Σ_j w(R, j) with w(R, k) = exp(ns_k · |x_R − q_k|), and the embeddings E(R, c) = Σ_k P(R, k) · C(k, c).
  The 32 row ranges cover the 131072 rows, so the outputs end holding P and E.
-/
import proofs.«180457_j57578331570649_2_alg».proof.Proof.Gen.KernelIdeal.Frame
import proofs.«180457_j57578331570649_2_alg».proof.Proof.KernelBody
import Idealize.ShloMosaic.Lib.Pipeline.Value

set_option maxRecDepth 16384

noncomputable section

open scoped BigOperators

namespace Cert.KernelIdeal.Blocks

open Cert.KernelIdeal Cert.KernelIdeal.Gen Idealize.ShloMosaic Idealize.ShloMosaic.TcCoe Idealize.ShloMosaic.ValueIdx
open Idealize.SL.Sem
open Idealize.ShloMosaic.Pipeline (Dat)

/-! ## The two outputs as functions of the flat arrays -/

/-- The weight of flat row R against bin k: exp(ns_k · |x_R − q_k|). -/
def flatWeight (xf : Vec Ideal S131072x1 .f32) (qr nr : Vec Ideal S1x256 .f32) (R : Fin 131072) (k : Fin 256) : EReal :=
  Ideal.exp (nr (ix2 (0 : Fin 1) k)
    * max (xf (ix2 R (0 : Fin 1)) - qr (ix2 (0 : Fin 1) k)) (-(xf (ix2 R (0 : Fin 1)) - qr (ix2 (0 : Fin 1) k))))

/-- The probability of bin k at flat row R. -/
def flatProb (xf : Vec Ideal S131072x1 .f32) (qr nr : Vec Ideal S1x256 .f32) (R : Fin 131072) (k : Fin 256) : EReal :=
  Ideal.div (flatWeight xf qr nr R k) (∑ j : Fin 256, flatWeight xf qr nr R j)

/-- The probabilities over (R, k). -/
def flatProbs (xf : Vec Ideal S131072x1 .f32) (qr nr : Vec Ideal S1x256 .f32) : Vec Ideal S131072x256 .f32 :=
  fun i => flatProb xf qr nr (i 0) (i 1)

/-- The embeddings over (R, c). -/
def flatEmbs (xf : Vec Ideal S131072x1 .f32) (qr nr : Vec Ideal S1x256 .f32) (cb : Vec Ideal S256x256 .f32) :
    Vec Ideal S131072x256 .f32 :=
  fun i => ∑ k : Fin 256, flatProb xf qr nr (i 0) k * cb (ix2 k (i 1))

/-! ## A block's values are the flat functions' at the block's rows -/

/-- A block of scalars that is rows T·4096 … of the flat column gives, at (r, k), the flat probability at row T·4096 + r. -/
theorem prob_of_block (xf : Vec Ideal S131072x1 .f32) (qr nr : Vec Ideal S1x256 .f32) (x0 : Vec Ideal S4096x1 .f32) (T : ℕ)
    (h0 : ∀ (r : Fin 4096) (R : Fin 131072), R.val = T * 4096 + r.val → x0 (ix2 r (0 : Fin 1)) = xf (ix2 R (0 : Fin 1)))
    (r : Fin 4096) (k : Fin 256) (R : Fin 131072) (hR : R.val = T * 4096 + r.val) :
    k0_pay1 (F := Ideal) x0 qr nr (ix2 r k) = flatProb xf qr nr R k := by
  rw [Body.pay1_apply]
  have hw : ∀ j : Fin 256, Body.weight x0 qr nr r j = flatWeight xf qr nr R j := fun j => by
    unfold Body.weight flatWeight
    rw [h0 r R hR]
  unfold flatProb
  rw [hw k]
  exact congrArg _ (Finset.sum_congr rfl fun j _ => hw j)

/-- The probabilities' block at a block index y is the flat probabilities at the array index i on the same row and bin. -/
theorem probs_of_block (xf : Vec Ideal S131072x1 .f32) (qr nr : Vec Ideal S1x256 .f32) (x0 : Vec Ideal S4096x1 .f32) (T : ℕ)
    (h0 : ∀ (r : Fin 4096) (R : Fin 131072), R.val = T * 4096 + r.val → x0 (ix2 r (0 : Fin 1)) = xf (ix2 R (0 : Fin 1)))
    (y : S4096x256.Idx) (i : S131072x256.Idx) (hi0 : (i 0).val = T * 4096 + (y 0).val) (hi1 : (i 1).val = (y 1).val) :
    k0_pay1 (F := Ideal) x0 qr nr y = flatProbs xf qr nr i := by
  obtain ⟨r, k, rfl⟩ : ∃ (r : Fin 4096) (k : Fin 256), y = ix2 r k := ⟨y 0, y 1, eq_ix2 y⟩
  obtain ⟨R, k', rfl⟩ : ∃ (R : Fin 131072) (k' : Fin 256), i = ix2 R k' := ⟨i 0, i 1, eq_ix2 i⟩
  obtain rfl : k' = k := Fin.ext hi1
  exact prob_of_block xf qr nr x0 T h0 r k' R hi0

/-- The embeddings' block likewise. -/
theorem embs_of_block (xf : Vec Ideal S131072x1 .f32) (qr nr : Vec Ideal S1x256 .f32) (cb : Vec Ideal S256x256 .f32)
    (x0 : Vec Ideal S4096x1 .f32) (T : ℕ)
    (h0 : ∀ (r : Fin 4096) (R : Fin 131072), R.val = T * 4096 + r.val → x0 (ix2 r (0 : Fin 1)) = xf (ix2 R (0 : Fin 1)))
    (y : S4096x256.Idx) (i : S131072x256.Idx) (hi0 : (i 0).val = T * 4096 + (y 0).val) (hi1 : (i 1).val = (y 1).val) :
    k0_pay2 (F := Ideal) x0 qr nr cb y = flatEmbs xf qr nr cb i := by
  obtain ⟨r, c, rfl⟩ : ∃ (r : Fin 4096) (c : Fin 256), y = ix2 r c := ⟨y 0, y 1, eq_ix2 y⟩
  obtain ⟨R, c', rfl⟩ : ∃ (R : Fin 131072) (c' : Fin 256), i = ix2 R c' := ⟨i 0, i 1, eq_ix2 i⟩
  obtain rfl : c' = c := Fin.ext hi1
  rw [Body.pay2_apply]
  exact Finset.sum_congr rfl fun k _ => by rw [prob_of_block xf qr nr x0 T h0 r k R hi0]

/-! ## The windows' blocks at a point -/

variable (m : (ℓ : Loc nD τ sig) → Buf (Elt Ideal) ℓ)

theorem offset_zero : (![0, 0] : Fin 2 → Nat) = fun _ => 0 := funext fun a => by fin_cases a <;> rfl

/-- The printed index maps over the grid: the scalars' window and the two outputs' are at block row t, the others at the
    one block of their arrays. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0
    ∧ win0_5.index t (0 : Fin 2) = t.val ∧ win0_5.index t (1 : Fin 2) = 0 :=
  (by decide +kernel : ∀ t : Fin grid0.N, _)

/-- The scalars' block at point t is rows t·4096 … of the flat column. -/
theorem scalars_block (c : Dev nD) (t : Fin cfg0.N) (r : Fin 4096) (R : Fin 131072) (hR : R.val = t.val * 4096 + r.val) :
    iblk m c 0 t (ix2 r (0 : Fin 1)) = V m c main_v0 (ix2 R (0 : Fin 1)) := by
  obtain ⟨e0, e1, -⟩ := idx_facts t
  show V m c main_v0 (((cfg0.win 0).blk t).view.emb (ix2 r (0 : Fin 1))) = V m c main_v0 (ix2 R (0 : Fin 1))
  refine congrArg _ (funext fun a => Fin.ext ?_)
  match a with
  | ⟨0, _⟩ => show win0_0.index t (0 : Fin 2) * 4096 + 1 * r.val = R.val; omega
  | ⟨1, _⟩ => show win0_0.index t (1 : Fin 2) * 1 + 1 * 0 = 0; omega

/-- The anchors' block is the whole row at every point. -/
theorem anchors_block (c : Dev nD) (t : Fin cfg0.N) : iblk m c 1 t = V m c main_v1 := by
  obtain ⟨-, -, e0, e1, -⟩ := idx_facts t
  funext y
  show V m c main_v1 (((cfg0.win 1).blk t).view.emb y) = V m c main_v1 y
  refine congrArg _ (funext fun a => Fin.ext ?_)
  match a with
  | ⟨0, _⟩ => show win0_1.index t (0 : Fin 2) * 1 + 1 * (y 0).val = (y 0).val; omega
  | ⟨1, _⟩ => show win0_1.index t (1 : Fin 2) * 256 + 1 * (y 1).val = (y 1).val; omega

/-- The negated scales' block is the whole row at every point. -/
theorem scales_block (c : Dev nD) (t : Fin cfg0.N) : iblk m c 2 t = V m c main_v4 := by
  obtain ⟨-, -, -, -, e0, e1, -⟩ := idx_facts t
  funext y
  show V m c main_v4 (((cfg0.win 2).blk t).view.emb y) = V m c main_v4 y
  refine congrArg _ (funext fun a => Fin.ext ?_)
  match a with
  | ⟨0, _⟩ => show win0_2.index t (0 : Fin 2) * 1 + 1 * (y 0).val = (y 0).val; omega
  | ⟨1, _⟩ => show win0_2.index t (1 : Fin 2) * 256 + 1 * (y 1).val = (y 1).val; omega

/-- The codebook's block is the whole codebook at every point. -/
theorem codebook_block (c : Dev nD) (t : Fin cfg0.N) : iblk m c 3 t = V m c main_arg3 := by
  obtain ⟨-, -, -, -, -, -, e0, e1, -⟩ := idx_facts t
  funext y
  show V m c main_arg3 (((cfg0.win 3).blk t).view.emb y) = V m c main_arg3 y
  refine congrArg _ (funext fun a => Fin.ext ?_)
  match a with
  | ⟨0, _⟩ => show win0_3.index t (0 : Fin 2) * 256 + 1 * (y 0).val = (y 0).val; omega
  | ⟨1, _⟩ => show win0_3.index t (1 : Fin 2) * 256 + 1 * (y 1).val = (y 1).val; omega

/-! ## What a point writes back -/

/-- Point t writes back, to the probabilities' array, block t of the flat probabilities. -/
theorem flushed_probs (c : Dev nD) (t : Fin cfg0.N) :
    (dats m 0 c).flushed 5 t
      = ((cfg0.win 5).blk t).view.read (Elt Ideal) (flatProbs (V m c main_v0) (V m c main_v1) (V m c main_v4)) := by
  show (cfg0.win 5).cut (grid0.coords t) ((dats m 0 c).after 5 t) = _
  rw [after0_5]
  unfold out0_5
  rw [View.canon_unit_zero offset_zero]
  simp only [View.ld_unit_zero (S := S4096x1) offset_zero, View.ld_unit_zero (S := S1x256) offset_zero]
  rw [anchors_block, scales_block]
  obtain ⟨-, -, -, -, -, -, -, -, -, -, e0, e1⟩ := idx_facts t
  refine funext fun (y : S4096x256.Idx) => ?_
  show k0_pay1 (F := Ideal) (iblk m c 0 t) (V m c main_v1) (V m c main_v4) y
    = flatProbs (V m c main_v0) (V m c main_v1) (V m c main_v4) (((cfg0.win 5).blk t).view.emb y)
  refine probs_of_block (V m c main_v0) (V m c main_v1) (V m c main_v4) (iblk m c 0 t) t.val
    (fun r R hR => scalars_block m c t r R hR) y _ ?_ ?_
  · show win0_5.index t (0 : Fin 2) * 4096 + 1 * (y 0).val = t.val * 4096 + (y 0).val; omega
  · show win0_5.index t (1 : Fin 2) * 256 + 1 * (y 1).val = (y 1).val; omega

/-- Point t writes back, to the embeddings' array, block t of the flat embeddings. -/
theorem flushed_embs (c : Dev nD) (t : Fin cfg0.N) :
    (dats m 0 c).flushed 4 t
      = ((cfg0.win 4).blk t).view.read (Elt Ideal) (flatEmbs (V m c main_v0) (V m c main_v1) (V m c main_v4) (V m c main_arg3)) := by
  show (cfg0.win 4).cut (grid0.coords t) ((dats m 0 c).after 4 t) = _
  rw [after0_4]
  unfold out0_4
  rw [View.canon_unit_zero offset_zero]
  simp only [View.ld_unit_zero (S := S4096x1) offset_zero, View.ld_unit_zero (S := S1x256) offset_zero,
    View.ld_unit_zero (S := S256x256) offset_zero]
  rw [anchors_block, scales_block, codebook_block]
  obtain ⟨-, -, -, -, -, -, -, -, e0, e1, -⟩ := idx_facts t
  refine funext fun (y : S4096x256.Idx) => ?_
  show k0_pay2 (F := Ideal) (iblk m c 0 t) (V m c main_v1) (V m c main_v4) (V m c main_arg3) y
    = flatEmbs (V m c main_v0) (V m c main_v1) (V m c main_v4) (V m c main_arg3) (((cfg0.win 4).blk t).view.emb y)
  refine embs_of_block (V m c main_v0) (V m c main_v1) (V m c main_v4) (V m c main_arg3) (iblk m c 0 t) t.val
    (fun r R hR => scalars_block m c t r R hR) y _ ?_ ?_
  · show win0_4.index t (0 : Fin 2) * 4096 + 1 * (y 0).val = t.val * 4096 + (y 0).val; omega
  · show win0_4.index t (1 : Fin 2) * 256 + 1 * (y 1).val = (y 1).val; omega

/-! ## The blocks cover the arrays -/

/-- An index of the probabilities' array is in point t's block iff each coordinate is in the block's range. -/
theorem mem_block_probs (t : Fin cfg0.N) (i : S131072x256.Idx) :
    i ∈ ((cfg0.win 5).blk t).view.set ↔ ∀ a : Fin 2, win0_5.index t a * S4096x256.size a ≤ (i a).val
      ∧ (i a).val < win0_5.index t a * S4096x256.size a + S4096x256.size a := by
  show i ∈ ((View.whole main_v5_1).slice (win0_5.rect t)).set ↔ _
  rw [View.set_slice_whole, Rect.mem_set_unit]
  exact Iff.rfl

/-- The same for the embeddings' array. -/
theorem mem_block_embs (t : Fin cfg0.N) (i : S131072x256.Idx) :
    i ∈ ((cfg0.win 4).blk t).view.set ↔ ∀ a : Fin 2, win0_4.index t a * S4096x256.size a ≤ (i a).val
      ∧ (i a).val < win0_4.index t a * S4096x256.size a + S4096x256.size a := by
  show i ∈ ((View.whole main_v5_0).slice (win0_4.rect t)).set ↔ _
  rw [View.set_slice_whole, Rect.mem_set_unit]
  exact Iff.rfl

/-- Row R of either output is in the block of point R / 4096. -/
theorem cover_probs (i : S131072x256.Idx) :
    ∃ t : Fin cfg0.N, (cfg0.win 5).flush t = true ∧ i ∈ ((cfg0.win 5).blk t).view.set := by
  have hi0 : (i 0).val < 131072 := (i 0).isLt
  have hi1 : (i 1).val < 256 := (i 1).isLt
  have hN : cfg0.N = 32 := N_0
  let t : Fin cfg0.N := ⟨(i 0).val / 4096, by rw [hN]; omega⟩
  have ht : t.val = (i 0).val / 4096 := rfl
  obtain ⟨-, -, -, -, -, -, -, -, -, -, e0, e1⟩ := idx_facts t
  refine ⟨t, flush0_5 t, ?_⟩
  rw [mem_block_probs]
  intro a
  match a with
  | ⟨0, _⟩ => show win0_5.index t (0 : Fin 2) * 4096 ≤ (i 0).val ∧ (i 0).val < win0_5.index t (0 : Fin 2) * 4096 + 4096; omega
  | ⟨1, _⟩ => show win0_5.index t (1 : Fin 2) * 256 ≤ (i 1).val ∧ (i 1).val < win0_5.index t (1 : Fin 2) * 256 + 256; omega

theorem cover_embs (i : S131072x256.Idx) :
    ∃ t : Fin cfg0.N, (cfg0.win 4).flush t = true ∧ i ∈ ((cfg0.win 4).blk t).view.set := by
  have hi0 : (i 0).val < 131072 := (i 0).isLt
  have hi1 : (i 1).val < 256 := (i 1).isLt
  have hN : cfg0.N = 32 := N_0
  let t : Fin cfg0.N := ⟨(i 0).val / 4096, by rw [hN]; omega⟩
  have ht : t.val = (i 0).val / 4096 := rfl
  obtain ⟨-, -, -, -, -, -, -, -, e0, e1, -⟩ := idx_facts t
  refine ⟨t, flush0_4 t, ?_⟩
  rw [mem_block_embs]
  intro a
  match a with
  | ⟨0, _⟩ => show win0_4.index t (0 : Fin 2) * 4096 ≤ (i 0).val ∧ (i 0).val < win0_4.index t (0 : Fin 2) * 4096 + 4096; omega
  | ⟨1, _⟩ => show win0_4.index t (1 : Fin 2) * 256 ≤ (i 1).val ∧ (i 1).val < win0_4.index t (1 : Fin 2) * 256 + 256; omega

/-! ## The output arrays after the region -/

/-- The probabilities' array after all 32 write-backs. -/
theorem final_probs (c : Dev nD) :
    (dats m 0 c).arrAt 5 cfg0.N = flatProbs (V m c main_v0) (V m c main_v1) (V m c main_v4) :=
  (dats m 0 c).arrAt_eq_of_cover 5 _ (fun t _ => flushed_probs m c t) cover_probs

/-- The embeddings' array after all 32 write-backs. -/
theorem final_embs (c : Dev nD) :
    (dats m 0 c).arrAt 4 cfg0.N = flatEmbs (V m c main_v0) (V m c main_v1) (V m c main_v4) (V m c main_arg3) :=
  (dats m 0 c).arrAt_eq_of_cover 4 _ (fun t _ => flushed_embs m c t) cover_embs

end Cert.KernelIdeal.Blocks

end
-- ==== Proof.SoftAssign.lean ====
/-
  The soft assignment of scalars to bins, on the extended reals.

  A scalar x = X(b, n) is compared with 256 anchors q_k; bin k gets the logit  ℓ_k = −exp(s_k) · |x − q_k|
  (|y| = max(y, −y)), the weight  w_k = exp ℓ_k,  the probability  p_k = w_k / Σ_j w_j,  and the embedding is the
  probability-weighted sum of the codebook's rows,  emb_e = Σ_k p_k · C(k, e).

  A softmax may first subtract any REAL number M from every logit: exp(ℓ_k − M) / Σ_j exp(ℓ_j − M) = exp ℓ_k / Σ_j exp ℓ_j
  when the logits are real (the common factor exp(−M) is a positive real and cancels). The largest logit, taken from −∞
  over a nonempty family of reals, is such a real.
-/
import Idealize.ShloMosaic.PureOps.Ideal.Laws
import Idealize.ShloMosaic.Lib.ValueIdx

noncomputable section

open scoped BigOperators

namespace Cert.SoftAssign

open Idealize.ShloMosaic Idealize.ShloMosaic.ValueIdx

/-- The logit of the scalar at (b, n) against bin k: −exp(s_k) · |x − q_k|. -/
def logit (X : FVec Ideal ⟨2, ![32, 4096]⟩ .f32) (Q LS : FVec Ideal ⟨1, ![256]⟩ .f32) (b : Fin 32) (n : Fin 4096)
    (k : Fin 256) : EReal :=
  (-(Ideal.exp (LS (ix1 k)))) * max (X (ix2 b n) - Q (ix1 k)) (-(X (ix2 b n) - Q (ix1 k)))

/-- The probability of bin k: its weight exp ℓ_k over the sum of the 256 weights. -/
def probs (X : FVec Ideal ⟨2, ![32, 4096]⟩ .f32) (Q LS : FVec Ideal ⟨1, ![256]⟩ .f32) (b : Fin 32) (n : Fin 4096)
    (k : Fin 256) : EReal :=
  Ideal.div (Ideal.exp (logit X Q LS b n k)) (∑ j : Fin 256, Ideal.exp (logit X Q LS b n j))

/-- The embedding's entry e: the probability-weighted sum of the codebook's column e. -/
def emb (X : FVec Ideal ⟨2, ![32, 4096]⟩ .f32) (Q LS : FVec Ideal ⟨1, ![256]⟩ .f32) (CB : FVec Ideal ⟨2, ![256, 256]⟩ .f32)
    (b : Fin 32) (n : Fin 4096) (e : Fin 256) : EReal :=
  ∑ k : Fin 256, probs X Q LS b n k * CB (ix2 k e)

/-- The probabilities as one array over (b, n, k). -/
def probsArr (X : FVec Ideal ⟨2, ![32, 4096]⟩ .f32) (Q LS : FVec Ideal ⟨1, ![256]⟩ .f32) :
    FVec Ideal ⟨3, ![32, 4096, 256]⟩ .f32 :=
  fun i => probs X Q LS (i 0) (i 1) (i 2)

/-- The embeddings as one array over (b, n, e). -/
def embArr (X : FVec Ideal ⟨2, ![32, 4096]⟩ .f32) (Q LS : FVec Ideal ⟨1, ![256]⟩ .f32) (CB : FVec Ideal ⟨2, ![256, 256]⟩ .f32) :
    FVec Ideal ⟨3, ![32, 4096, 256]⟩ .f32 :=
  fun i => emb X Q LS CB (i 0) (i 1) (i 2)

/-- A finite sum of reals, read in the extended reals, is the sum of the summands read there. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- SHIFT INVARIANCE: subtracting a real M from every real logit changes no probability. The left side is spelt as a
    softmax that starts its sum from 0. -/
theorem shift_invariant {ι : Type} [Fintype ι] [Nonempty ι] (l : ι → ℝ) (M : ℝ) (k : ι) :
    Ideal.div (Ideal.exp ((l k : EReal) - (M : EReal))) (0 + ∑ j, Ideal.exp ((l j : EReal) - (M : EReal)))
      = Ideal.div (Ideal.exp (l k : EReal)) (∑ j, Ideal.exp (l j : EReal)) := by
  have h1 : ∀ j, Ideal.exp ((l j : EReal) - (M : EReal)) = ((Real.exp (l j - M) : ℝ) : EReal) := fun j => by
    rw [← EReal.coe_sub]; rfl
  have h2 : ∀ j, Ideal.exp (l j : EReal) = ((Real.exp (l j) : ℝ) : EReal) := fun j => rfl
  simp only [h1, h2, zero_add, ← coe_sum]
  have p1 : (∑ j, Real.exp (l j - M)) ≠ 0 := (Finset.sum_pos (fun j _ => Real.exp_pos _) Finset.univ_nonempty).ne'
  have p2 : (∑ j, Real.exp (l j)) ≠ 0 := (Finset.sum_pos (fun j _ => Real.exp_pos _) Finset.univ_nonempty).ne'
  rw [Ideal.div_coe p1, Ideal.div_coe p2, ← EReal.coe_mul, ← EReal.coe_mul]
  congr 1
  have hM : Real.exp M ≠ 0 := (Real.exp_pos M).ne'
  simp only [Real.exp_sub]
  rw [← Finset.sum_div]
  field_simp

/-- The f32 pattern 0xFF800000 is −∞. -/
theorem ofBits_neg_inf : Ideal.ofBits .f32 0xFF800000#32 = (⊥ : EReal) := by
  simp [Ideal.ofBits, Ideal.ieee]

/-- The largest of a nonempty finite family of reals, the maximum taken from −∞, is a real. -/
theorem fold_max_real {K : ℕ} (hK : 0 < K) (f : Fin K → EReal) (hf : ∀ k, ∃ r : ℝ, f k = (r : EReal)) :
    ∃ r : ℝ, (Finset.univ : Finset (Fin K)).fold max (Ideal.ofBits .f32 0xFF800000#32) f = (r : EReal) := by
  rw [ofBits_neg_inf]
  have lo : f ⟨0, hK⟩ ≤ (Finset.univ : Finset (Fin K)).fold max (⊥ : EReal) f :=
    (Finset.le_fold_max _).2 (Or.inr ⟨⟨0, hK⟩, Finset.mem_univ _, le_rfl⟩)
  have hi : (Finset.univ : Finset (Fin K)).fold max (⊥ : EReal) f < ⊤ :=
    (Finset.fold_max_lt _).2 ⟨bot_lt_top, fun k _ => by obtain ⟨r, hr⟩ := hf k; rw [hr]; exact EReal.coe_lt_top r⟩
  obtain ⟨r0, hr0⟩ := hf ⟨0, hK⟩
  refine ⟨((Finset.univ : Finset (Fin K)).fold max (⊥ : EReal) f).toReal, (EReal.coe_toReal hi.ne ?_).symm⟩
  intro hb
  rw [hb, hr0] at lo
  exact absurd lo (not_le.2 (EReal.bot_lt_coe r0))

/-- The largest with −∞ (the pattern again) is itself. -/
theorem max_neg_inf (x : EReal) : max (Ideal.ofBits .f32 0xFF800000#32) x = x := by
  rw [ofBits_neg_inf]; exact max_eq_right bot_le

/-- With real inputs every logit is a real. -/
theorem logit_real (X : FVec Ideal ⟨2, ![32, 4096]⟩ .f32) (Q LS : FVec Ideal ⟨1, ![256]⟩ .f32)
    (hX : ∀ i, ∃ r : ℝ, X i = (r : EReal)) (hQ : ∀ i, ∃ r : ℝ, Q i = (r : EReal)) (hS : ∀ i, ∃ r : ℝ, LS i = (r : EReal))
    (b : Fin 32) (n : Fin 4096) (k : Fin 256) : ∃ r : ℝ, logit X Q LS b n k = (r : EReal) := by
  obtain ⟨x, hx⟩ := hX (ix2 b n)
  obtain ⟨q, hq⟩ := hQ (ix1 k)
  obtain ⟨s, hs⟩ := hS (ix1 k)
  refine ⟨-(Real.exp s) * max (x - q) (-(x - q)), ?_⟩
  unfold logit
  have hm : max ((x - q : ℝ) : EReal) ((-(x - q) : ℝ) : EReal) = ((max (x - q) (-(x - q)) : ℝ) : EReal) :=
    (EReal.coe_strictMono.monotone.map_max).symm
  rw [hx, hq, hs, Ideal.exp_coe, ← EReal.coe_sub, ← EReal.coe_neg, ← EReal.coe_neg, hm, ← EReal.coe_mul]

end Cert.SoftAssign

end
-- ==== Proof.KernelWhole.lean ====
/-
  The kernel's two results as the soft assignment's arrays.

  Before the grid the host flattens the 32×4096 scalars to a 131072×1 column (row b·4096 + n holds X(b, n)), lays the
  anchors out as a 1×256 row and the negated scales −exp(s_k) as another. After the grid it folds the two 131072×256
  outputs back to 32×4096×256: entry (b, n, k) is row b·4096 + n, column k. Read through these layouts, the flat
  probabilities and embeddings the grid leaves are the soft assignment's, index by index — for any inputs at all.
-/
import proofs.«180457_j57578331570649_2_alg».proof.Proof.KernelBlocks
import proofs.«180457_j57578331570649_2_alg».proof.Proof.SoftAssign
import proofs.«180457_j57578331570649_2_alg».proof.Proof.LibLayoutRead
import Idealize.ShloMosaic.Lib.StableHlo.Run
import Idealize.ShloMosaic.Lib.Pipeline.FrameSuffix
import Idealize.ShloMosaic.Lib.ValueLayout

set_option maxRecDepth 16384

noncomputable section

open scoped BigOperators

namespace Cert.KernelIdeal.Whole

open Cert.KernelIdeal Cert.KernelIdeal.Gen Cert.KernelIdeal.Blocks Cert.SoftAssign
open Idealize.ShloMosaic Idealize.ShloMosaic.TcCoe Idealize.ShloMosaic.ValueIdx Idealize.ShloMosaic.StableHlo
open Idealize.SL.Sem

variable (m : (ℓ : Loc nD τ sig) → Buf (Elt Ideal) ℓ)

/-! ## The arrays the grid is launched on -/

/-- The flat column of scalars is the 32×4096 input reshaped. -/
theorem scalars_eq (c : Dev nD) :
    (V m c main_v0 : S131072x1.Idx → EReal)
      = shapeCast S131072x1 (m ((c : Thread nD τ).loc main_arg0)) shapeCasts_S32x4096_S131072x1 := by
  show StableHlo.after hostOps0 (fun b => m (c, b)) (Proc.devRef .tc main_v0) = _
  after_results
  rfl

/-- The anchors' row is the 256 anchors reshaped. -/
theorem anchors_eq (c : Dev nD) :
    (V m c main_v1 : S1x256.Idx → EReal) = shapeCast S1x256 (m ((c : Thread nD τ).loc main_arg1)) shapeCasts_S256_S1x256 := by
  show StableHlo.after hostOps0 (fun b => m (c, b)) (Proc.devRef .tc main_v1) = _
  after_results
  rfl

/-- The scales' row is −exp of the 256 log-scales, reshaped. -/
theorem scales_eq (c : Dev nD) :
    (V m c main_v4 : S1x256.Idx → EReal)
      = shapeCast S1x256 (Host.negf (F := Ideal) (s := S256) (φ := .f32)
          (Host.exp (F := Ideal) (s := S256) (φ := .f32) (m ((c : Thread nD τ).loc main_arg2)))) shapeCasts_S256_S1x256 := by
  show StableHlo.after hostOps0 (fun b => m (c, b)) (Proc.devRef .tc main_v4) = _
  after_results
  rfl

/-- Row b·4096 + n of the flat column is X(b, n). -/
theorem scalars_apply (c : Dev nD) (b : Fin 32) (n : Fin 4096) (R : Fin 131072) (hR : R.val = b.val * 4096 + n.val) :
    V m c main_v0 (ix2 R (0 : Fin 1)) = m ((c : Thread nD τ).loc main_arg0) (ix2 b n) := by
  rw [scalars_eq]
  refine shapeCast_apply (s := S32x4096) (t := S131072x1) _ shapeCasts_S32x4096_S131072x1 (ix2 R (0 : Fin 1)) (ix2 b n) ?_
  show (S32x4096.rowMajor (ix2 b n)).val = (S131072x1.rowMajor (ix2 R (0 : Fin 1))).val
  rw [Shape.rowMajor_val_two, Shape.rowMajor_val_two]
  show b.val * 4096 + n.val = R.val * 1 + 0
  omega

/-- Entry k of the anchors' row is q_k. -/
theorem anchors_apply (c : Dev nD) (k : Fin 256) :
    V m c main_v1 (ix2 (0 : Fin 1) k) = m ((c : Thread nD τ).loc main_arg1) (ix1 k) := by
  rw [anchors_eq]
  exact shapeCast_a_1a_apply _ _ _ _

/-- Entry k of the scales' row is −exp(s_k). -/
theorem scales_apply (c : Dev nD) (k : Fin 256) :
    V m c main_v4 (ix2 (0 : Fin 1) k) = -(Ideal.exp (m ((c : Thread nD τ).loc main_arg2) (ix1 k))) := by
  rw [scales_eq]
  refine (shapeCast_a_1a_apply _ _ _ _).trans ?_
  rfl

/-! ## The flat outputs read through the layouts -/

/-- The flat probability at row b·4096 + n is the soft assignment's at (b, n). -/
theorem flatProb_apply (c : Dev nD) (b : Fin 32) (n : Fin 4096) (k : Fin 256) (R : Fin 131072) (hR : R.val = b.val * 4096 + n.val) :
    flatProb (V m c main_v0) (V m c main_v1) (V m c main_v4) R k
      = probs (m ((c : Thread nD τ).loc main_arg0)) (m ((c : Thread nD τ).loc main_arg1)) (m ((c : Thread nD τ).loc main_arg2)) b n k := by
  have hw : ∀ j : Fin 256, flatWeight (V m c main_v0) (V m c main_v1) (V m c main_v4) R j
      = Ideal.exp (logit (m ((c : Thread nD τ).loc main_arg0)) (m ((c : Thread nD τ).loc main_arg1)) (m ((c : Thread nD τ).loc main_arg2)) b n j) := fun j => by
    unfold flatWeight logit
    rw [scalars_apply m c b n R hR, anchors_apply, scales_apply]
  unfold flatProb probs
  rw [hw k]
  exact congrArg _ (Finset.sum_congr rfl fun j _ => hw j)

/-! ## The results after the host's last two reshapes -/

/-- The probabilities @main returns. -/
theorem result_probs (c : Dev nD) :
    Pipeline.afterTail₀ cfgs (dats m) 0 (V0 m) [hostOps1] c main_v7
      = probsArr (m ((c : Thread nD τ).loc main_arg0)) (m ((c : Thread nD τ).loc main_arg1)) (m ((c : Thread nD τ).loc main_arg2)) := by
  have e : Pipeline.withArrays (cfgs 0).spec c (V0 m c) (fun w => (dats m 0 c).arrAt w (cfgs 0).N) (Proc.devRef .tc main_v5_1)
      = flatProbs (V m c main_v0) (V m c main_v1) (V m c main_v4) :=
    (Pipeline.withArrays_arr spec0 launch0.win.arr_inj c _ _ 5).trans (final_probs m c)
  have e2 : Pipeline.afterTail₀ cfgs (dats m) 0 (V0 m) [hostOps1] c main_v7
      = shapeCast S32x4096x256 (flatProbs (V m c main_v0) (V m c main_v1) (V m c main_v4)) shapeCasts_S131072x256_S32x4096x256 := by
    unfold Pipeline.afterTail₀
    show StableHlo.after hostOps1 _ (Proc.devRef .tc main_v7) = _
    after_results
    rw [e]
    rfl
  rw [e2]
  funext i
  obtain ⟨b, n, k, rfl⟩ : ∃ (b : Fin 32) (n : Fin 4096) (k : Fin 256), i = ix3 b n k := ⟨i 0, i 1, i 2, eq_ix3 i⟩
  have hlt : b.val * 4096 + n.val < 131072 := by have := b.isLt; have := n.isLt; omega
  rw [LayoutRead.shapeCast_mc_abc_apply _ _ b n k ⟨b.val * 4096 + n.val, hlt⟩ rfl]
  exact flatProb_apply m c b n k _ rfl

/-- The embeddings @main returns. -/
theorem result_embs (c : Dev nD) :
    Pipeline.afterTail₀ cfgs (dats m) 0 (V0 m) [hostOps1] c main_v6
      = embArr (m ((c : Thread nD τ).loc main_arg0)) (m ((c : Thread nD τ).loc main_arg1)) (m ((c : Thread nD τ).loc main_arg2))
          (m ((c : Thread nD τ).loc main_arg3)) := by
  have e : Pipeline.withArrays (cfgs 0).spec c (V0 m c) (fun w => (dats m 0 c).arrAt w (cfgs 0).N) (Proc.devRef .tc main_v5_0)
      = flatEmbs (V m c main_v0) (V m c main_v1) (V m c main_v4) (V m c main_arg3) :=
    (Pipeline.withArrays_arr spec0 launch0.win.arr_inj c _ _ 4).trans (final_embs m c)
  have e2 : Pipeline.afterTail₀ cfgs (dats m) 0 (V0 m) [hostOps1] c main_v6
      = shapeCast S32x4096x256 (flatEmbs (V m c main_v0) (V m c main_v1) (V m c main_v4) (V m c main_arg3))
          shapeCasts_S131072x256_S32x4096x256 := by
    unfold Pipeline.afterTail₀
    show StableHlo.after hostOps1 _ (Proc.devRef .tc main_v6) = _
    after_results
    rw [e]
    rfl
  rw [e2]
  funext i
  obtain ⟨b, n, e', rfl⟩ : ∃ (b : Fin 32) (n : Fin 4096) (e' : Fin 256), i = ix3 b n e' := ⟨i 0, i 1, i 2, eq_ix3 i⟩
  have hlt : b.val * 4096 + n.val < 131072 := by have := b.isLt; have := n.isLt; omega
  rw [LayoutRead.shapeCast_mc_abc_apply _ _ b n e' ⟨b.val * 4096 + n.val, hlt⟩ rfl]
  show (∑ k : Fin 256, flatProb (V m c main_v0) (V m c main_v1) (V m c main_v4) ⟨b.val * 4096 + n.val, hlt⟩ k
      * V m c main_arg3 (ix2 k e')) = _
  unfold embArr emb
  rw [V_main_arg3]
  exact Finset.sum_congr rfl fun k _ => by rw [flatProb_apply m c b n k _ rfl]

/-! ## The run -/

/-- Every weakly fair execution of the kernel's program terminates with the embeddings and the probabilities of the
    soft assignment of its inputs in its two results, and its arguments as they were. -/
theorem run (ρ : Dev nD → PrngReg) :
    θ_run defs (onTc (τ := τ) (main (F := Ideal))) ⟨m, fun _ => 0, ρ⟩ fun r => ∀ c : Dev nD,
      r.2.mem ((c.tc : Thread nD τ).loc main_v6)
          = embArr (m ((c : Thread nD τ).loc main_arg0)) (m ((c : Thread nD τ).loc main_arg1)) (m ((c : Thread nD τ).loc main_arg2))
              (m ((c : Thread nD τ).loc main_arg3))
      ∧ r.2.mem ((c.tc : Thread nD τ).loc main_v7)
          = probsArr (m ((c : Thread nD τ).loc main_arg0)) (m ((c : Thread nD τ).loc main_arg1)) (m ((c : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun r h c =>
    ⟨((h c).2 main_v6 (Pipeline.mem_restRefs_of main_v6 (by decide) (by decide))).trans (result_embs m c),
      ((h c).2 main_v7 (Pipeline.mem_restRefs_of main_v7 (by decide) (by decide))).trans (result_probs m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).1 3).trans (((dats m 0 c).arrAt_in 3 rfl _).trans ((A_eq m c 3).trans (V_main_arg3 m c)))⟩)
    (run_main m ρ)

end Cert.KernelIdeal.Whole

end
-- ==== Proof.RefValue.lean ====
/-
  The reference's two results, index by index, are the soft assignment's arrays — when the inputs are real.

  The reference forms the logits ℓ(b, n, k) over the whole 32×4096×256 box, takes each (b, n)'s largest logit M(b, n)
  (from −∞), exponentiates ℓ − M, sums over k from 0, divides, and contracts the probabilities with the codebook. With
  real inputs the logits are real and so is M, and subtracting a real M changes no probability.
-/
import proofs.«180457_j57578331570649_2_alg».proof.Proof.Gen.ReferenceIdeal.Read
import proofs.«180457_j57578331570649_2_alg».proof.Proof.SoftAssign
import Idealize.ShloMosaic.Lib.ValueIdx
import Idealize.ShloMosaic.PureOps.Ideal.Laws
import Idealize.ShloMosaic.PureOps.Reduce

noncomputable section

open scoped BigOperators

namespace Cert.ReferenceIdeal.RefValue

open Cert.ReferenceIdeal Cert.ReferenceIdeal.Gen Cert.ReferenceIdeal.Read Cert.SoftAssign
open Idealize.ShloMosaic Idealize.ShloMosaic.ValueIdx

/-- The reference's logit at (b, n, k) is the soft assignment's. -/
theorem logits_apply (x0 : FVec Ideal S32x4096 .f32) (x1 x2 : FVec Ideal S256 .f32) (b : Fin 32) (n : Fin 4096) (k : Fin 256) :
    val_main_v10 (F := Ideal) x0 x1 x2 (ix3 b n k) = logit x0 x1 x2 b n k := by
  have i1 : idx_main_v8 (idx_main_v9 (ix3 b n k)) = ix1 k :=
    funext fun a => Fin.ext (by match a with | ⟨0, _⟩ => rfl)
  have i2 : idx_main_v0 (idx_main_v2 (ix3 b n k)) = ix2 b n :=
    funext fun a => Fin.ext (by match a with | ⟨0, _⟩ => rfl | ⟨1, _⟩ => rfl)
  have i3 : idx_main_v1 (idx_main_v3 (ix3 b n k)) = ix1 k :=
    funext fun a => Fin.ext (by match a with | ⟨0, _⟩ => rfl)
  rw [val_main_v10_apply, val_main_v9_apply, val_main_v8_apply, val_main_v7_apply, val_main_v6_apply, val_main_v5_apply,
    val_main_v4_apply, val_main_v2_apply, val_main_v0_apply, val_main_v3_apply, val_main_v1_apply, i1, i2, i3]
  rfl

/-- With real inputs every entry of the logits' box is real. -/
theorem logits_real (x0 : FVec Ideal S32x4096 .f32) (x1 x2 : FVec Ideal S256 .f32)
    (h0 : ∀ i, ∃ r : ℝ, x0 i = (r : EReal)) (h1 : ∀ i, ∃ r : ℝ, x1 i = (r : EReal)) (h2 : ∀ i, ∃ r : ℝ, x2 i = (r : EReal))
    (i : S32x4096x256.Idx) : ∃ r : ℝ, val_main_v10 (F := Ideal) x0 x1 x2 i = (r : EReal) := by
  obtain ⟨b, n, k, rfl⟩ : ∃ (b : Fin 32) (n : Fin 4096) (k : Fin 256), i = ix3 b n k := ⟨i 0, i 1, i 2, eq_ix3 i⟩
  rw [logits_apply]
  exact logit_real x0 x1 x2 h0 h1 h2 b n k

/-- With real inputs the largest logit of each (b, n), taken from −∞, is real. -/
theorem shift_real (x0 : FVec Ideal S32x4096 .f32) (x1 x2 : FVec Ideal S256 .f32)
    (h0 : ∀ i, ∃ r : ℝ, x0 i = (r : EReal)) (h1 : ∀ i, ∃ r : ℝ, x1 i = (r : EReal)) (h2 : ∀ i, ∃ r : ℝ, x2 i = (r : EReal))
    (j : S32x4096.Idx) : ∃ r : ℝ, val_main_v13 (F := Ideal) x0 x1 x2 j = (r : EReal) := by
  have hred : S32x4096x256.Reduces [2] S32x4096 := by decide
  rw [val_main_v13_apply, val_main_v12_apply, val_main_cst_0_apply]
  unfold val_main_v11
  rw [Host.reduce_eq_fold_single FloatOps.maximumf _ _ reducesTo_S32x4096x256_S32x4096_d2 hred h_S_ j]
  obtain ⟨r, hr⟩ := fold_max_real (K := S32x4096x256.size 2) (by decide)
    (val_main_v10 (F := Ideal) x0 x1 x2 ∘ hred.lift j) (fun k => logits_real x0 x1 x2 h0 h1 h2 _)
  refine ⟨r, ?_⟩
  show max (Ideal.ofBits .f32 0xFF800000#32) _ = _
  rw [max_neg_inf]
  exact hr

/-- THE PROBABILITIES: with real inputs the reference's quotient at (b, n, k) is the soft assignment's probability. -/
theorem probs_apply (x0 : FVec Ideal S32x4096 .f32) (x1 x2 : FVec Ideal S256 .f32)
    (h0 : ∀ i, ∃ r : ℝ, x0 i = (r : EReal)) (h1 : ∀ i, ∃ r : ℝ, x1 i = (r : EReal)) (h2 : ∀ i, ∃ r : ℝ, x2 i = (r : EReal))
    (b : Fin 32) (n : Fin 4096) (k : Fin 256) :
    val_main_v21 (F := Ideal) x0 x1 x2 (ix3 b n k) = probs x0 x1 x2 b n k := by
  obtain ⟨M, hM⟩ := shift_real x0 x1 x2 h0 h1 h2 (ix2 b n)
  have hl : ∀ j : Fin 256, ∃ r : ℝ, logit x0 x1 x2 b n j = (r : EReal) := fun j => logit_real x0 x1 x2 h0 h1 h2 b n j
  choose l hl using hl
  have hw : ∀ j : Fin 256, val_main_v17 (F := Ideal) x0 x1 x2 (ix3 b n j) = Ideal.exp ((l j : EReal) - (M : EReal)) := fun j => by
    have i4 : idx_main_v14 (idx_main_v15 (ix3 b n j)) = ix2 b n :=
      funext fun a => Fin.ext (by match a with | ⟨0, _⟩ => rfl | ⟨1, _⟩ => rfl)
    rw [val_main_v17_apply, val_main_v16_apply, val_main_v15_apply, val_main_v14_apply, logits_apply, hl j, i4, hM]
    rfl
  have i5 : idx_main_v19 (idx_main_v20 (ix3 b n k)) = ix2 b n :=
    funext fun a => Fin.ext (by match a with | ⟨0, _⟩ => rfl | ⟨1, _⟩ => rfl)
  have i6 : ∀ j : Fin 256, idx_main_v18 (ix2 b n) j = ix3 b n j := fun j =>
    funext fun a => Fin.ext (by match a with | ⟨0, _⟩ => rfl | ⟨1, _⟩ => rfl | ⟨2, _⟩ => rfl)
  rw [val_main_v21_apply, val_main_v20_apply, val_main_v19_apply, i5, val_main_v18_apply, val_main_cst_1_apply]
  simp only [i6, hw]
  show Ideal.div _ (Ideal.ofBits .f32 0x00000000#32 + _) = _
  rw [Ideal.ofBits_zero_f32, shift_invariant l M k]
  unfold probs
  simp only [hl]

/-- THE EMBEDDINGS: the reference's contraction at (b, n, e) is the sum over the bins of its quotient times the codebook. -/
theorem embs_apply (x0 : FVec Ideal S32x4096 .f32) (x1 x2 : FVec Ideal S256 .f32) (x3 : FVec Ideal S256x256 .f32)
    (h0 : ∀ i, ∃ r : ℝ, x0 i = (r : EReal)) (h1 : ∀ i, ∃ r : ℝ, x1 i = (r : EReal)) (h2 : ∀ i, ∃ r : ℝ, x2 i = (r : EReal))
    (b : Fin 32) (n : Fin 4096) (e : Fin 256) :
    val_main_v22 (F := Ideal) x0 x1 x2 x3 (ix3 b n e) = emb x0 x1 x2 x3 b n e := by
  have il : ∀ k : Fin 256, lidx_main_v22 (ix3 b n e) k = ix3 b n k := fun k =>
    funext fun a => Fin.ext (by match a with | ⟨0, _⟩ => rfl | ⟨1, _⟩ => rfl | ⟨2, _⟩ => rfl)
  have ir : ∀ k : Fin 256, ridx_main_v22 (ix3 b n e) k = ix2 k e := fun k =>
    funext fun a => Fin.ext (by match a with | ⟨0, _⟩ => rfl | ⟨1, _⟩ => rfl)
  rw [val_main_v22_apply]
  unfold emb
  exact Finset.sum_congr rfl fun k _ => by rw [il k, ir k, probs_apply x0 x1 x2 h0 h1 h2 b n k]

/-- The reference's probabilities, as an array. -/
theorem probs_eq (x0 : FVec Ideal S32x4096 .f32) (x1 x2 : FVec Ideal S256 .f32)
    (h0 : ∀ i, ∃ r : ℝ, x0 i = (r : EReal)) (h1 : ∀ i, ∃ r : ℝ, x1 i = (r : EReal)) (h2 : ∀ i, ∃ r : ℝ, x2 i = (r : EReal)) :
    val_main_v21 (F := Ideal) x0 x1 x2 = probsArr x0 x1 x2 := by
  funext i
  obtain ⟨b, n, k, rfl⟩ : ∃ (b : Fin 32) (n : Fin 4096) (k : Fin 256), i = ix3 b n k := ⟨i 0, i 1, i 2, eq_ix3 i⟩
  exact probs_apply x0 x1 x2 h0 h1 h2 b n k

/-- The reference's embeddings, as an array. -/
theorem embs_eq (x0 : FVec Ideal S32x4096 .f32) (x1 x2 : FVec Ideal S256 .f32) (x3 : FVec Ideal S256x256 .f32)
    (h0 : ∀ i, ∃ r : ℝ, x0 i = (r : EReal)) (h1 : ∀ i, ∃ r : ℝ, x1 i = (r : EReal)) (h2 : ∀ i, ∃ r : ℝ, x2 i = (r : EReal)) :
    val_main_v22 (F := Ideal) x0 x1 x2 x3 = embArr x0 x1 x2 x3 := by
  funext i
  obtain ⟨b, n, e, rfl⟩ : ∃ (b : Fin 32) (n : Fin 4096) (e : Fin 256), i = ix3 b n e := ⟨i 0, i 1, i 2, eq_ix3 i⟩
  exact embs_apply x0 x1 x2 x3 h0 h1 h2 b n e

end Cert.ReferenceIdeal.RefValue

end
-- ==== Proof.Finite.lean ====
/-
  The precondition read back: every entry of the scalars, the anchors and the log-scales is a real number.

  The precondition is a conjunction of four "all entries have |x| < +∞" tests. A conjunction of bits that is 1 has
  every conjunct 1; an all-reduction by "and" that is 1 had a 1 at every entry; and |x| = max(x, −x) < +∞ on the
  extended reals leaves only the reals (at −∞ and at +∞ the magnitude is +∞).
-/
import proofs.«180457_j57578331570649_2_alg».proof.Pre_finite_inputs
import proofs.«180457_j57578331570649_2_alg».proof.Proof.Gen.Pre_finite_inputs
import Idealize.ShloMosaic.Lib.ReduceAll
import Idealize.ShloMosaic.Lib.ValueIdx
import Idealize.ShloMosaic.PureOps.Ideal.Laws

noncomputable section

namespace Cert.Pre_finite_inputs.Finite

open Cert.Pre_finite_inputs Idealize.ShloMosaic Idealize.ShloMosaic.ValueIdx

instance : Subsingleton S_.Idx := ⟨fun a b => funext fun d => d.elim0⟩

/-- The f32 pattern 0x7F800000 is +∞. -/
theorem ofBits_pos_inf : Ideal.ofBits .f32 0x7F800000#32 = (⊤ : EReal) := by
  simp [Ideal.ofBits, Ideal.ieee]

/-- A magnitude below +∞ belongs to a real. -/
theorem real_of_abs_lt (x : EReal) (h : Ideal.cmp .olt (max x (-x)) (Ideal.ofBits .f32 0x7F800000#32) = 1#1) :
    ∃ r : ℝ, x = (r : EReal) := by
  rw [ofBits_pos_inf] at h
  have hlt : max x (-x) < ⊤ := by
    by_contra hn
    simp [Ideal.cmp, hn] at h
  induction x using EReal.rec with
  | bot => simp at hlt
  | coe r => exact ⟨r, rfl⟩
  | top => simp at hlt

/-- Under the precondition the scalars, the anchors and the log-scales are real, entry by entry. -/
theorem reals_of_pre (a0 : FVec Ideal S32x4096 .f32) (a1 a2 : FVec Ideal S256 .f32) (a3 : FVec Ideal S256x256 .f32)
    (h : fn (F := Ideal) a0 a1 a2 a3 = fun _ => 1#1) :
    (∀ i, ∃ r : ℝ, a0 i = (r : EReal)) ∧ (∀ i, ∃ r : ℝ, a1 i = (r : EReal)) ∧ (∀ i, ∃ r : ℝ, a2 i = (r : EReal)) := by
  have h0 := congrFun h ix0
  dsimp only [fn, fn_part1] at h0
  obtain ⟨h13, -⟩ := IntOp.andi_eq_one.1 h0
  obtain ⟨h8, h12⟩ := IntOp.andi_eq_one.1 h13
  obtain ⟨h3, h7⟩ := IntOp.andi_eq_one.1 h8
  refine ⟨fun i => ?_, fun i => ?_, fun i => ?_⟩
  · exact real_of_abs_lt (a0 i) (Host.reduce_andi_all _ _ _ _ _ h3 i)
  · exact real_of_abs_lt (a1 i) (Host.reduce_andi_all _ _ _ _ _ h7 i)
  · exact real_of_abs_lt (a2 i) (Host.reduce_andi_all _ _ _ _ _ h12 i)

end Cert.Pre_finite_inputs.Finite

end
-- ==== Proof.lean ====
/-
  A soft quantizer — each of 32·4096 scalars softly assigned to 256 anchors, and the assignment's probabilities
  contracted with a 256×256 codebook — computed two ways: a 32-point grid over the flattened scalars whose softmax does
  not subtract the row's largest logit, and one whole-array program whose softmax does.

  On the extended reals both return the same two arrays when the inputs are real numbers. For a scalar x and bin k the
  logit is ℓ_k = −exp(s_k)·|x − q_k|, the probability exp ℓ_k / Σ_j exp ℓ_j, the embedding Σ_k p_k·C(k, ·) (the module
  SoftAssign). The grid's blocks are rows of these arrays, and the host's reshapes around it only rename indices
  (KernelBody, KernelBlocks, KernelWhole: no assumption on the inputs). The whole-array program subtracts from every
  logit of a scalar their largest, M: with real inputs every logit is real, so M is a real, and the common factor exp(−M)
  cancels between numerator and denominator (RefValue). That the inputs are real is what the precondition says (Finite).
  The three programs' runs and unchanged arguments come from their generated frame and run modules.
-/
import proofs.«180457_j57578331570649_2_alg».proof.Defs
import proofs.«180457_j57578331570649_2_alg».proof.Proof.Gen.Kernel
import proofs.«180457_j57578331570649_2_alg».proof.Proof.Gen.Kernel.Skeleton
import proofs.«180457_j57578331570649_2_alg».proof.Proof.Gen.Kernel.Launch
import proofs.«180457_j57578331570649_2_alg».proof.Proof.Gen.Kernel.Points
import proofs.«180457_j57578331570649_2_alg».proof.Proof.Gen.Kernel.Frame
import proofs.«180457_j57578331570649_2_alg».proof.Proof.Gen.KernelIdeal
import proofs.«180457_j57578331570649_2_alg».proof.Proof.Gen.KernelIdeal.Skeleton
import proofs.«180457_j57578331570649_2_alg».proof.Proof.Gen.KernelIdeal.Launch
import proofs.«180457_j57578331570649_2_alg».proof.Proof.Gen.KernelIdeal.Points
import proofs.«180457_j57578331570649_2_alg».proof.Proof.Gen.KernelIdeal.Frame
import proofs.«180457_j57578331570649_2_alg».proof.Proof.Gen.ReferenceIdeal
import proofs.«180457_j57578331570649_2_alg».proof.Proof.Gen.Pre_finite_inputs
import proofs.«180457_j57578331570649_2_alg».proof.Proof.Gen.ReferenceIdeal.Run
import proofs.«180457_j57578331570649_2_alg».proof.Proof.Gen.ReferenceIdeal.Read
import proofs.«180457_j57578331570649_2_alg».proof.Proof.KernelWhole
import proofs.«180457_j57578331570649_2_alg».proof.Proof.RefValue
import proofs.«180457_j57578331570649_2_alg».proof.Proof.Finite
import Idealize.ShloMosaic.Adequacy
import Idealize.ShloMosaic.Init

noncomputable section

namespace Cert.Proof

open Idealize.ShloMosaic Idealize.ShloMosaic.TcCoe Idealize.SL.Sem Cert.SoftAssign

/-- The word-level kernel runs and leaves its arguments alone. -/
theorem frame_kernel : Cert.frame_Kernel := fun m ρ _ => Cert.Kernel.Gen.frame m ρ

/-- So does the kernel read on the extended reals. -/
theorem frame_kernelIdeal : Cert.frame_KernelIdeal := fun m ρ _ => Cert.KernelIdeal.Gen.frame m ρ

/-- And the whole-array program: its run, the results dropped. -/
theorem frame_referenceIdeal : Cert.frame_ReferenceIdeal := fun m ρ _ =>
  (θ_run Cert.ReferenceIdeal.defs _ _).mono (fun _ h c => (h c).2.2) (Cert.ReferenceIdeal.Value.run (F := Ideal) m ρ)

/-- The two programs return the soft assignment's embeddings and probabilities of the same real inputs. -/
theorem algebraic : Cert.algebraic_KernelIdeal_ReferenceIdeal := by
  intro m ρ m' ρ' hpre hagree
  refine ⟨fun c => embArr (m ((c.tc : Thread Cert.KernelIdeal.nD Cert.KernelIdeal.τ).loc Cert.KernelIdeal.main_arg0))
        (m ((c.tc : Thread Cert.KernelIdeal.nD Cert.KernelIdeal.τ).loc Cert.KernelIdeal.main_arg1))
        (m ((c.tc : Thread Cert.KernelIdeal.nD Cert.KernelIdeal.τ).loc Cert.KernelIdeal.main_arg2))
        (m ((c.tc : Thread Cert.KernelIdeal.nD Cert.KernelIdeal.τ).loc Cert.KernelIdeal.main_arg3)),
    fun c => probsArr (m ((c.tc : Thread Cert.KernelIdeal.nD Cert.KernelIdeal.τ).loc Cert.KernelIdeal.main_arg0))
        (m ((c.tc : Thread Cert.KernelIdeal.nD Cert.KernelIdeal.τ).loc Cert.KernelIdeal.main_arg1))
        (m ((c.tc : Thread Cert.KernelIdeal.nD Cert.KernelIdeal.τ).loc Cert.KernelIdeal.main_arg2)),
    Cert.KernelIdeal.Whole.run m ρ, ?_⟩
  refine (θ_run Cert.ReferenceIdeal.defs _ _).mono (fun r h c => ?_) (Cert.ReferenceIdeal.Value.run (F := Ideal) m' ρ')
  obtain ⟨hX, hQ, hS⟩ := Cert.Pre_finite_inputs.Finite.reals_of_pre _ _ _ _ (hpre c)
  obtain ⟨a0, a1, a2, a3⟩ := hagree c
  refine ⟨(h c).1.trans ?_, (h c).2.1.trans ?_, (h c).2.2⟩
  · rw [a0, a1, a2, a3]
    exact (Cert.ReferenceIdeal.Read.val_main_v22_eq _ _ _ _).trans (Cert.ReferenceIdeal.RefValue.embs_eq _ _ _ _ hX hQ hS)
  · rw [a0, a1, a2]
    exact (Cert.ReferenceIdeal.Read.val_main_v21_eq _ _ _).trans (Cert.ReferenceIdeal.RefValue.probs_eq _ _ _ hX hQ hS)

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
